-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn {F : FTy → Type} [FloatOps F] (main_arg0 : FVec F S8x2048x2048 .f32) (main_arg1 : FVec F S8x2048x8192 .f32) (main_arg2 : FVec F S8x8192x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192x2048 .f32 := Host.absf main_arg2
  let main_cst_2 : FVec F S_ .f32 := constant S_ .f32 0x7F800000#32
  let main_v10 : FVec F S8x8192x2048 .f32 := broadcastInDim S8x8192x2048 ![] bcast_S_S8x8192x2048 main_cst_2
  let main_v11 : IVec S8x8192x2048 1 := cmpf .olt main_v9 main_v10
  let main_c_3 : IVec S_ 1 := constantI S_ 1 1#1
  let main_v12 : IVec S_ 1 := (fun x v => Host.reduce IntOp.andi x v reducesTo_S8x8192x2048_S_d0_1_2 h_S_) main_v11 main_c_3
  let main_v13 : IVec S_ 1 := andi main_v8 main_v12
  main_v13
-- ==== Kernel.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x8192, .f32⟩
  | .hbm, ⟨2, _⟩ => ⟨S8x8192x2048, .f32⟩
  | .hbm, ⟨3, _⟩ => ⟨S8x2048x8192, .bf16⟩
  | .hbm, ⟨4, _⟩ => ⟨S8x8192x2048, .bf16⟩
  | .hbm, ⟨5, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x1024x2048, .f32⟩
  | .local _ .vmem, ⟨7, _⟩ => ⟨S1x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .bf16 = 32 ∨ (Rect.block (s := S8x2048x8192) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x8192x2048.size a
  hwx0_2 : ∀ i : grid0.Coords, EltTy.bits .bf16 = 32 ∨ (Rect.block (s := S8x8192x2048) S1x256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x2048x2048.size a
  hwx0_3 : ∀ i : grid0.Coords, EltTy.bits .f32 = 32 ∨ (Rect.block (s := S8x2048x2048) S1x1024x2048.size (cc0_transform_3 i) (hinb0_3 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x8192 : Shape := ⟨3, ![8, 2048, 8192]⟩
abbrev S8x8192x2048 : Shape := ⟨3, ![8, 8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x8192, .f32⟩
  | .hbm, ⟨2, _⟩ => ⟨S8x8192x2048, .f32⟩
  | .hbm, ⟨3, _⟩ => ⟨S8x2048x8192, .f32⟩
  | .hbm, ⟨4, _⟩ => ⟨S_, .f32⟩
  | .hbm, ⟨5, _⟩ => ⟨S8x2048x8192, .f32⟩
  | .hbm, ⟨6, _⟩ => ⟨S8x2048x8192, .f32⟩
  | .hbm, ⟨7, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x8192 : S_.BroadcastsInDim S8x2048x8192 (![] : Fin 0 → Fin S8x2048x8192.rank)
  dot_S8x2048x2048_S8x2048x8192_S8x2048x8192_2_1_1_2_0_0_wf : DotDims.WF S8x2048x2048 S8x2048x8192 S8x2048x8192 [2] [1] [1] [2] [0] [0]
  dot_S8x2048x8192_S8x8192x2048_S8x2048x2048_2_1_1_2_0_0_wf : DotDims.WF S8x2048x8192 S8x8192x2048 S8x2048x2048 [2] [1] [1] [2] [0] [0]

variable [Facts₀]

def dot_S8x2048x2048_S8x2048x8192_S8x2048x8192_2_1_1_2_0_0 : DotDims S8x2048x2048 S8x2048x8192 S8x2048x8192 where
  lhsContracting := [2]
  rhsContracting := [1]
  lhsNonContracting := [1]
  rhsNonContracting := [2]
  lhsBatch := [0]
  rhsBatch := [0]
  wf := dot_S8x2048x2048_S8x2048x8192_S8x2048x8192_2_1_1_2_0_0_wf
def dot_S8x2048x8192_S8x8192x2048_S8x2048x2048_2_1_1_2_0_0 : DotDims S8x2048x8192 S8x8192x2048 S8x2048x2048 where
  lhsContracting := [2]
  rhsContracting := [1]
  lhsNonContracting := [1]
  rhsNonContracting := [2]
  lhsBatch := [0]
  rhsBatch := [0]
  wf := dot_S8x2048x8192_S8x8192x2048_S8x2048x2048_2_1_1_2_0_0_wf

class Facts : Prop extends Facts₀ where

variable [Facts]
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.ExpertFfn.lean ====
/-
  The function both programs compute, on the extended reals: a per-expert two-layer feed-forward block with a ReLU
  between the layers. For an expert `e`, a token row `r` and an output column `q`,

      out (e, r, q) = ∑ h < 8192, max (∑ k < 2048, x (e, r, k) · w1 (e, k, h)) 0 · w2 (e, h, q).

  `hidden` is the activation of hidden unit `h` (the first contraction, then the maximum with zero), `term` is that
  unit's contribution to the output entry, and `ffn` is the sum of the contributions over the whole hidden axis. A
  program that accumulates the hidden axis tile by tile computes the same sum taken block by block (`ffn_tiles`: 32
  tiles of 256 hidden units; only associativity and commutativity of the addition, so no finiteness is asked).
-/
import Idealize.ShloMosaic.Lib.ValueIdx
import Idealize.ShloMosaic.PureOps.Ideal.Laws
import proofs.«151476_j80882824118673_2_alg».proof.Proof.LibBlockedSum

noncomputable section

namespace ExpertFfn

open Idealize.ShloMosaic Idealize.ShloMosaic.ValueIdx

/-- Tokens: 8 experts × 2048 rows × 2048 model features. -/
abbrev Tok : Shape := ⟨3, ![8, 2048, 2048]⟩
/-- First-layer weights: 8 experts × 2048 model features × 8192 hidden units. -/
abbrev WIn : Shape := ⟨3, ![8, 2048, 8192]⟩
/-- Second-layer weights: 8 experts × 8192 hidden units × 2048 model features. -/
abbrev WOut : Shape := ⟨3, ![8, 8192, 2048]⟩

/-- The activation of hidden unit `h` of expert `e` on token row `r`: the row's product with the unit's weight column,
    then the maximum with zero. -/
def hidden (x : Tok.Idx → EReal) (w1 : WIn.Idx → EReal) (e : Fin 8) (r : Fin 2048) (h : Fin 8192) : EReal :=
  max (∑ k : Fin 2048, x (ix3 e r k) * w1 (ix3 e k h)) 0

/-- Hidden unit `h`'s contribution to output entry `(e, r, q)`. -/
def term (x : Tok.Idx → EReal) (w1 : WIn.Idx → EReal) (w2 : WOut.Idx → EReal) (e : Fin 8) (r : Fin 2048) (q : Fin 2048)
    (h : Fin 8192) : EReal :=
  hidden x w1 e r h * w2 (ix3 e h q)

/-- The block's output: every entry the sum of all hidden units' contributions. -/
def ffn (x : Tok.Idx → EReal) (w1 : WIn.Idx → EReal) (w2 : WOut.Idx → EReal) : Tok.Idx → EReal :=
  fun i => ∑ h : Fin 8192, term x w1 w2 (i 0) (i 1) (i 2) h

/-- A hidden unit's contribution with the unit named by a natural number (zero past the hidden axis): the form in
    which a tile's units `256 · s + j` are written. -/
def termAt (x : Tok.Idx → EReal) (w1 : WIn.Idx → EReal) (w2 : WOut.Idx → EReal) (e : Fin 8) (r : Fin 2048) (q : Fin 2048)
    (n : ℕ) : EReal :=
  if hn : n < 8192 then term x w1 w2 e r q ⟨n, hn⟩ else 0

/-- The output entry as the sum, over the 32 hidden tiles, of each tile's 256 contributions. -/
theorem ffn_tiles (x : Tok.Idx → EReal) (w1 : WIn.Idx → EReal) (w2 : WOut.Idx → EReal) (e : Fin 8) (r : Fin 2048) (q : Fin 2048) :
    ffn x w1 w2 (ix3 e r q) = ∑ s ∈ Finset.range 32, ∑ j : Fin 256, termAt x w1 w2 e r q (256 * s + j.val) := by
  rw [BlockedSum.sum_fin_blocks 32 256 8192 rfl (termAt x w1 w2 e r q)]
  refine Finset.sum_congr rfl fun h _ => ?_
  unfold termAt
  rw [dif_pos h.isLt]

end ExpertFfn

end
-- ==== Proof.RefRead.lean ====
/-
  The reference program's result is the feed-forward block `ExpertFfn.ffn` of its three arguments. Read one operation
  at a time: the last `dot_general` contracts the hidden axis of the activations against the second-layer weights; the
  activations are the maximum of the first `dot_general` (the model axis of the tokens against the first-layer weights,
  batched over the experts) with a zero splat. Element by element that is the definition of `ffn`.
-/
import proofs.«151476_j80882824118673_2_alg».proof.Proof.Gen.ReferenceIdeal.Read
import proofs.«151476_j80882824118673_2_alg».proof.Proof.ExpertFfn

noncomputable section

namespace Cert.ReferenceIdeal.RefValue

open Cert.ReferenceIdeal Cert.ReferenceIdeal.Read Idealize.ShloMosaic Idealize.ShloMosaic.ValueIdx ExpertFfn

/-- The first contraction's left operand index: row `(e, r)` of the tokens at model feature `k`. -/
theorem lidx_hidden (i : S8x2048x2048.Idx) (h : Fin 8192) (k : Fin 2048) :
    lidx_main_v0 (lidx_main_v2 i h) k = ix3 (i 0) (i 1) k :=
  funext fun a => match a with | ⟨0, _⟩ => rfl | ⟨1, _⟩ => rfl | ⟨2, _⟩ => rfl

/-- The first contraction's right operand index: column `h` of expert `e`'s first-layer weights at model feature `k`. -/
theorem ridx_hidden (i : S8x2048x2048.Idx) (h : Fin 8192) (k : Fin 2048) :
    ridx_main_v0 (lidx_main_v2 i h) k = ix3 (i 0) k h :=
  funext fun a => match a with | ⟨0, _⟩ => rfl | ⟨1, _⟩ => rfl | ⟨2, _⟩ => rfl

/-- The second contraction's right operand index: row `h` of expert `e`'s second-layer weights at column `q`. -/
theorem ridx_out (i : S8x2048x2048.Idx) (h : Fin 8192) :
    ridx_main_v2 i h = ix3 (i 0) h (i 2) :=
  funext fun a => match a with | ⟨0, _⟩ => rfl | ⟨1, _⟩ => rfl | ⟨2, _⟩ => rfl

/-- The reference's composed term is `ffn`: index by index the same double sum. -/
theorem result_eq (x0 : (⟨S8x2048x2048, .f32⟩ : BufTy).Contents (Elt Ideal)) (x1 : (⟨S8x2048x8192, .f32⟩ : BufTy).Contents (Elt Ideal))
    (x2 : (⟨S8x8192x2048, .f32⟩ : BufTy).Contents (Elt Ideal)) :
    val_main_v2 (F := Ideal) x0 x1 x2 = ffn x0 x1 x2 := by
  funext i
  rw [val_main_v2_apply]
  refine Finset.sum_congr rfl fun h _ => ?_
  rw [val_main_v1_apply, val_main_v0_apply, val_main_call0_v0_apply, val_main_call0_cst_apply]
  simp only [lidx_hidden, ridx_hidden, ridx_out, Ideal.maximumf_def, Ideal.ofBits_def, Ideal.ofBits_zero_f32]
  rfl

end Cert.ReferenceIdeal.RefValue

end
-- ==== Proof.TileStep.lean ====
/-
  What one grid step of the kernel body computes, entry by entry, on the extended reals.

  The body holds a [1024, 2048] tile of token rows, a [2048, 256] tile of first-layer weight columns (256 hidden
  units), the matching [256, 2048] tile of second-layer weight rows, and the running output tile. It multiplies the
  token tile by the first weight tile, takes the maximum with zero, multiplies by the second weight tile and adds the
  product to the running output. Changes of float format are the identity on the extended reals, and a matrix product
  into a zero accumulator is the plain sum over the contracted axis. So at entry (p, q) of the tile the step adds

      ∑ j < 256, max (∑ k < 2048, x (p, k) · w1 (k, j)) 0 · w2 (j, q)

  to what the output tile held there: the contributions of this tile's 256 hidden units. The reset step's starting
  contents are a zero splat.
-/
import proofs.«151476_j80882824118673_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.TileStep

open Cert.KernelIdeal Cert.KernelIdeal.Gen Idealize.ShloMosaic Idealize.ShloMosaic.ValueIdx

/-! ## The two matrix products' operand indices -/

/-- First product, [1024, 2048] × [2048, 256]: the left operand's row is the output's row. -/
theorem in_lhs0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- … its column the contracted index. -/
theorem in_lhs1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
/-- The right operand's row is the contracted index. -/
theorem in_rhs0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
/-- … its column the output's column. -/
theorem in_rhs1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- Second product, [1024, 256] × [256, 2048]: the same four facts. -/
theorem out_lhs0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem out_lhs1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem out_rhs0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem out_rhs1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-! ## The two matrix products at an entry -/

/-- The first product into a zero accumulator, at (p, j): the sum over the 2048 model features. -/
theorem matmul_in_apply (a : FVec Ideal S1024x2048 .bf16) (b : FVec Ideal S2048x256 .bf16) (p : Fin 1024) (j : Fin 256) :
    matmul dot_S1024x2048_S2048x256_S1024x256_1_0_0_1_n_n none a b (constant (F := Ideal) S1024x256 .f32 0x00000000#32) (ix2 p j)
      = ∑ k : Fin 2048, a (ix2 p k) * b (ix2 k j) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p j) ((contrEquiv1 dot_S1024x2048_S2048x256_S1024x256_1_0_0_1_n_n 2048 rfl rfl).symm k) = ix2 p k := funext fun a => Fin.ext (by
    match a with
    | ⟨0, _⟩ => exact in_lhs0 _ _
    | ⟨1, _⟩ => exact (in_lhs1 _ _).trans hk)
  have er : dot_S1024x2048_S2048x256_S1024x256_1_0_0_1_n_n.rhsIdx (ix2 p j) ((contrEquiv1 dot_S1024x2048_S2048x256_S1024x256_1_0_0_1_n_n 2048 rfl rfl).symm k) = ix2 k j := funext fun a => Fin.ext (by
    match a with
    | ⟨0, _⟩ => exact (in_rhs0 _ _).trans hk
    | ⟨1, _⟩ => exact in_rhs1 _ _)
  rw [el, er]

/-- The second product into a zero accumulator, at (p, q): the sum over the tile's 256 hidden units. -/
theorem matmul_out_apply (a : FVec Ideal S1024x256 .bf16) (b : FVec Ideal S256x2048 .bf16) (p : Fin 1024) (q : Fin 2048) :
    matmul dot_S1024x256_S256x2048_S1024x2048_1_0_0_1_n_n none a b (constant (F := Ideal) S1024x2048 .f32 0x00000000#32) (ix2 p q)
      = ∑ j : Fin 256, a (ix2 p j) * b (ix2 j q) := by
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 p q) ((contrEquiv1 dot_S1024x256_S256x2048_S1024x2048_1_0_0_1_n_n 256 rfl rfl).symm k) = ix2 p k := funext fun a => Fin.ext (by
    match a with
    | ⟨0, _⟩ => exact out_lhs0 _ _
    | ⟨1, _⟩ => exact (out_lhs1 _ _).trans hk)
  have er : dot_S1024x256_S256x2048_S1024x2048_1_0_0_1_n_n.rhsIdx (ix2 p q) ((contrEquiv1 dot_S1024x256_S256x2048_S1024x2048_1_0_0_1_n_n 256 rfl rfl).symm k) = ix2 k q := funext fun a => Fin.ext (by
    match a with
    | ⟨0, _⟩ => exact (out_rhs0 _ _).trans hk
    | ⟨1, _⟩ => exact out_rhs1 _ _)
  rw [el, er]

/-! ## The body's two stored values at an entry -/

/-- The reset's starting contents: zero everywhere. -/
theorem zero_fill_apply (u : Fin 1) (p : Fin 1024) (q : Fin 2048) : k0_pay1 (F := Ideal) (ix3 u p q) = 0 := by
  unfold k0_pay1
  refine (shapeCast_ab_1ab_apply _ _ u p q).trans ?_
  show Ideal.ofBits .f32 0x00000000#32 = 0
  exact Ideal.ofBits_zero_f32

/-- The contributions of a tile's 256 hidden units to entry (p, q) of the output tile, over the three input tiles. -/
def contrib (x0 : Vec Ideal S1x1024x2048 .f32) (x1 : Vec Ideal S1x2048x256 .bf16) (x2 : Vec Ideal S1x256x2048 .bf16)
    (p : Fin 1024) (q : Fin 2048) : EReal :=
  ∑ j : Fin 256, max (∑ k : Fin 2048, x0 (ix3 (0 : Fin 1) p k) * x1 (ix3 (0 : Fin 1) k j)) 0 * x2 (ix3 (0 : Fin 1) j q)

/-- One step at entry (p, q): what the output tile held there, plus the contributions of the tile's 256 hidden units. -/
theorem step_apply (x0 : Vec Ideal S1x1024x2048 .f32) (x1 : Vec Ideal S1x2048x256 .bf16) (x2 : Vec Ideal S1x256x2048 .bf16)
    (acc : Vec Ideal S1x1024x2048 .f32) (u : Fin 1) (p : Fin 1024) (q : Fin 2048) :
    k0_pay2 (F := Ideal) x0 x1 x2 acc (ix3 u p q) = acc (ix3 u p q) + contrib x0 x1 x2 p q := by
  have hu : u = 0 := Subsingleton.elim _ _
  subst hu
  unfold k0_pay2 contrib
  refine (shapeCast_ab_1ab_apply _ _ 0 p q).trans ?_
  refine (addf_apply _ _ _).trans ?_
  refine congrArg₂ (· + ·) (shapeCast_1ab_ab_apply acc _ p q) ?_
  refine (matmul_out_apply _ _ p q).trans ?_
  refine Finset.sum_congr rfl fun j _ => ?_
  refine congrArg₂ (· * ·) ?_ (shapeCast_1ab_ab_apply x2 _ j q)
  refine (truncf_apply (ψ := .bf16) _ bitsLt_bf16_f32 (ix2 p j)).trans ?_
  refine (maximumf_apply _ _ _).trans ?_
  refine congrArg₂ max ?_ ?_
  · refine (matmul_in_apply _ _ p j).trans ?_
    refine Finset.sum_congr rfl fun k _ => ?_
    refine congrArg₂ (· * ·) ?_ (shapeCast_1ab_ab_apply x1 _ k j)
    exact (truncf_apply (ψ := .bf16) _ bitsLt_bf16_f32 (ix2 p k)).trans (shapeCast_1ab_ab_apply x0 _ p k)
  · show Ideal.ofBits .f32 0x00000000#32 = 0
    exact Ideal.ofBits_zero_f32

end Cert.KernelIdeal.TileStep

end
-- ==== Proof.InputTiles.lean ====
/-
  Which entries of the argument arrays a grid point's three input tiles hold.

  The grid is 8 experts × 2 row halves × 32 hidden tiles, visited in row-major order, so point `t` works on expert
  `t / 64`, on the row half `t / 32 % 2` and on hidden tile `t % 32`. Its token tile is rows
  `1024 · (t / 32 % 2) + p` of that expert's tokens; its first-layer tile is columns `256 · (t % 32) + j` of that
  expert's first-layer weights; its second-layer tile is rows `256 · (t % 32) + j` of its second-layer weights. The two
  weight arrays reach the kernel through a change of float format, which is the identity on the extended reals, so
  the tiles hold entries of the arguments themselves.
-/
import proofs.«151476_j80882824118673_2_alg».proof.Proof.Gen.KernelIdeal.Frame
import Idealize.ShloMosaic.Lib.ValueIdx
import Idealize.ShloMosaic.Lib.StableHlo.Run
import Idealize.ShloMosaic.Lib.Pipeline.Value

noncomputable section

namespace Cert.KernelIdeal.InputTiles

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The three input windows' block indices at every grid point: (expert, row half, 0), (expert, 0, hidden tile) and
    (expert, hidden tile, 0). -/
theorem tile_index : ∀ t : Fin cfg0.N,
    win0_0.index t (0 : Fin 3) = t.val / 64 ∧ win0_0.index t (1 : Fin 3) = t.val / 32 % 2 ∧ win0_0.index t (2 : Fin 3) = 0
    ∧ win0_1.index t (0 : Fin 3) = t.val / 64 ∧ win0_1.index t (1 : Fin 3) = 0 ∧ win0_1.index t (2 : Fin 3) = t.val % 32
    ∧ win0_2.index t (0 : Fin 3) = t.val / 64 ∧ win0_2.index t (1 : Fin 3) = t.val % 32 ∧ win0_2.index t (2 : Fin 3) = 0 :=
  (by decide +kernel : ∀ t : Fin grid0.N, _)

/-- The first-layer weights as the kernel finds them are the argument: the change of format before the call is the
    identity on the extended reals. -/
theorem V_w1 (c : Dev nD) :
    (V m c main_v0 : S8x2048x8192.Idx → EReal) = m ((c : Thread nD τ).loc main_arg1) := by
  dsimp only [Gen.V, Gen.hostOps0]; after_results; rfl

/-- The second-layer weights likewise. -/
theorem V_w2 (c : Dev nD) :
    (V m c main_v1 : S8x8192x2048.Idx → EReal) = m ((c : Thread nD τ).loc main_arg2) := by
  dsimp only [Gen.V, Gen.hostOps0]; after_results; rfl

/-- The token tile at point `t`, entry (p, k): row `1024 · (t / 32 % 2) + p` of expert `t / 64`, feature `k`. -/
theorem tokens_tile (c : Dev nD) (t : Fin cfg0.N) (e : Fin 8) (r : Fin 2048) (p : Fin 1024) (k : Fin 2048)
    (he : e.val = t.val / 64) (hr : r.val = t.val / 32 % 2 * 1024 + p.val) :
    iblk m c 0 t (ix3 (0 : Fin 1) p k) = m ((c : Thread nD τ).loc main_arg0) (ix3 e r k) := by
  obtain ⟨a0, a1, a2, -⟩ := tile_index t
  unfold iblk
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = e.val; omega
  | ⟨1, _⟩ => show win0_0.index t (1 : Fin 3) * 1024 + 1 * p.val = r.val; omega
  | ⟨2, _⟩ => show win0_0.index t (2 : Fin 3) * 2048 + 1 * k.val = k.val; omega

/-- The first-layer tile at point `t`, entry (k, j): feature `k`, hidden unit `256 · (t % 32) + j` of expert `t / 64`. -/
theorem w1_tile (c : Dev nD) (t : Fin cfg0.N) (e : Fin 8) (h : Fin 8192) (k : Fin 2048) (j : Fin 256)
    (he : e.val = t.val / 64) (hh : h.val = 256 * (t.val % 32) + j.val) :
    iblk m c 1 t (ix3 (0 : Fin 1) k j) = m ((c : Thread nD τ).loc main_arg1) (ix3 e k h) := by
  obtain ⟨-, -, -, a0, a1, a2, -⟩ := tile_index t
  unfold iblk
  show (V m c main_v0 : S8x2048x8192.Idx → EReal) (((cfg0.win 1).blk t).view.emb (ix3 (0 : Fin 1) k j)) = _
  rw [V_w1]
  refine congrArg _ (funext fun a => Fin.ext ?_)
  match a with
  | ⟨0, _⟩ => show win0_1.index t (0 : Fin 3) * 1 + 1 * 0 = e.val; omega
  | ⟨1, _⟩ => show win0_1.index t (1 : Fin 3) * 2048 + 1 * k.val = k.val; omega
  | ⟨2, _⟩ => show win0_1.index t (2 : Fin 3) * 256 + 1 * j.val = h.val; omega

/-- The second-layer tile at point `t`, entry (j, q): hidden unit `256 · (t % 32) + j`, column `q` of expert `t / 64`. -/
theorem w2_tile (c : Dev nD) (t : Fin cfg0.N) (e : Fin 8) (h : Fin 8192) (j : Fin 256) (q : Fin 2048)
    (he : e.val = t.val / 64) (hh : h.val = 256 * (t.val % 32) + j.val) :
    iblk m c 2 t (ix3 (0 : Fin 1) j q) = m ((c : Thread nD τ).loc main_arg2) (ix3 e h q) := by
  obtain ⟨-, -, -, -, -, -, a0, a1, a2⟩ := tile_index t
  unfold iblk
  show (V m c main_v1 : S8x8192x2048.Idx → EReal) (((cfg0.win 2).blk t).view.emb (ix3 (0 : Fin 1) j q)) = _
  rw [V_w2]
  refine congrArg _ (funext fun a => Fin.ext ?_)
  match a with
  | ⟨0, _⟩ => show win0_2.index t (0 : Fin 3) * 1 + 1 * 0 = e.val; omega
  | ⟨1, _⟩ => show win0_2.index t (1 : Fin 3) * 256 + 1 * j.val = h.val; omega
  | ⟨2, _⟩ => show win0_2.index t (2 : Fin 3) * 2048 + 1 * q.val = q.val; omega

end Cert.KernelIdeal.InputTiles

end
-- ==== Proof.Accumulated.lean ====
/-
  The kernel's output array is the feed-forward block of its arguments.

  For each expert and row half the output tile stays resident over 32 consecutive grid points, one per hidden tile: the
  first point starts from zero, and every point adds its tile's contributions (`TileStep.step_apply`). So after the
  32nd point an entry of the tile holds zero plus the sum, over the 32 hidden tiles, of each tile's 256 contributions,
  and that tile is what is written back. With the tiles' entries identified as entries of the arguments
  (`InputTiles`), this is the hidden axis summed tile by tile (`ExpertFfn.ffn_tiles`), that is `ExpertFfn.ffn`.
-/
import proofs.«151476_j80882824118673_2_alg».proof.Proof.Gen.KernelIdeal.Value
import proofs.«151476_j80882824118673_2_alg».proof.Proof.ExpertFfn
import proofs.«151476_j80882824118673_2_alg».proof.Proof.TileStep
import proofs.«151476_j80882824118673_2_alg».proof.Proof.InputTiles

noncomputable section

namespace Cert.KernelIdeal.Accumulated

open Cert.KernelIdeal Cert.KernelIdeal.Gen Idealize.ShloMosaic Idealize.ShloMosaic.ValueIdx Idealize.ShloMosaic.TcCoe Idealize.SL.Sem
open ExpertFfn

variable (m : (ℓ : Loc nD τ sig) → Buf (Elt Ideal) ℓ)

/-- What grid point `n` adds to entry (p, q) of the resident output tile: the contributions of the 256 hidden units
    of the point's tile, over the point's three input tiles (zero past the grid). -/
def addend (c : Dev nD) (n : ℕ) (p : Fin 1024) (q : Fin 2048) : EReal :=
  if h : n < cfg0.N then TileStep.contrib (iblk m c 0 ⟨n, h⟩) (iblk m c 1 ⟨n, h⟩) (iblk m c 2 ⟨n, h⟩) p q else 0

/-- The first point of a run leaves zero plus its addend. -/
theorem reset_apply (c : Dev nD) (n : ℕ) (h : n < cfg0.N) (u : Fin 1) (p : Fin 1024) (q : Fin 2048) :
    Value.reset3 m c n h (ix3 u p q) = 0 + addend m c n p q := by
  unfold Value.reset3
  refine (TileStep.step_apply (iblk m c 0 ⟨n, h⟩) (iblk m c 1 ⟨n, h⟩) (iblk m c 2 ⟨n, h⟩) (k0_pay1 (F := Ideal)) u p q).trans ?_
  unfold addend
  rw [dif_pos h, TileStep.zero_fill_apply]

/-- Every later point adds its addend to what the point before left. -/
theorem step_apply (c : Dev nD) (n : ℕ) (h : n < cfg0.N) (acc : S1x1024x2048.Idx → EReal) (u : Fin 1) (p : Fin 1024) (q : Fin 2048) :
    Value.step3 m c n h acc (ix3 u p q) = acc (ix3 u p q) + addend m c n p q := by
  unfold Value.step3
  refine (TileStep.step_apply (iblk m c 0 ⟨n, h⟩) (iblk m c 1 ⟨n, h⟩) (iblk m c 2 ⟨n, h⟩) acc u p q).trans ?_
  unfold addend
  rw [dif_pos h]

/-- After the 32 points of a run starting at `b`, an entry of the resident tile holds the sum of the 32 addends. -/
theorem fold_apply (c : Dev nD) (b : ℕ) (h : b + 31 < cfg0.N) (y : S1x1024x2048.Idx) :
    Pipeline.accAt (Value.reset3 m c) (Value.step3 m c) b 31 h y
      = 0 + ∑ s ∈ Finset.range 32, addend m c (b + s) (y 1) (y 2) :=
  Pipeline.accAt_add_apply (ι := S1x1024x2048.Idx) (β := EReal) (Value.reset3 m c) (Value.step3 m c) (fun _ => 0)
    (fun n y => addend m c n (y 1) (y 2)) b 31
    (fun h y => by
      obtain ⟨u, p, q, rfl⟩ : ∃ (u : Fin 1) (p : Fin 1024) (q : Fin 2048), y = ix3 u p q := ⟨y 0, y 1, y 2, eq_ix3 y⟩
      exact reset_apply m c b h u p q)
    (fun n h acc y _ _ => by
      obtain ⟨u, p, q, rfl⟩ : ∃ (u : Fin 1) (p : Fin 1024) (q : Fin 2048), y = ix3 u p q := ⟨y 0, y 1, y 2, eq_ix3 y⟩
      exact step_apply m c n h acc u p q)
    31 le_rfl h y

/-- The addend of hidden tile `s` in the run of expert `e` and row `r`'s half, at `r`'s place in the tile: the
    contributions of hidden units `256 · s + j` to output entry (e, r, q), over the arguments. -/
theorem addend_eq (c : Dev nD) (e : Fin 8) (r q : Fin 2048) (p : Fin 1024) (hp : p.val = r.val % 1024) (s : ℕ) (hs : s < 32) :
    addend m c (32 * (2 * e.val + r.val / 1024) + s) p q
      = ∑ j : Fin 256, termAt (m ((c : Thread nD τ).loc main_arg0)) (m ((c : Thread nD τ).loc main_arg1))
          (m ((c : Thread nD τ).loc main_arg2)) e r q (256 * s + j.val) := by
  have hN : cfg0.N = 512 := N_0
  have he := e.isLt
  have hr := r.isLt
  have ht : 32 * (2 * e.val + r.val / 1024) + s < cfg0.N := by rw [hN]; omega
  unfold addend
  rw [dif_pos ht]
  unfold TileStep.contrib
  refine Finset.sum_congr rfl fun j _ => ?_
  have hj := j.isLt
  have hh : 256 * s + j.val < 8192 := by omega
  unfold termAt
  rw [dif_pos hh]
  unfold ExpertFfn.term ExpertFfn.hidden
  have e2 := InputTiles.w2_tile m c ⟨32 * (2 * e.val + r.val / 1024) + s, ht⟩ e ⟨256 * s + j.val, hh⟩ j q
    (by show e.val = (32 * (2 * e.val + r.val / 1024) + s) / 64; omega)
    (by show 256 * s + j.val = 256 * ((32 * (2 * e.val + r.val / 1024) + s) % 32) + j.val; omega)
  refine congrArg₂ (· * ·) (congrArg (max · 0) (Finset.sum_congr rfl fun k _ => ?_)) e2
  have e0 := InputTiles.tokens_tile m c ⟨32 * (2 * e.val + r.val / 1024) + s, ht⟩ e r p k
    (by show e.val = (32 * (2 * e.val + r.val / 1024) + s) / 64; omega)
    (by show r.val = (32 * (2 * e.val + r.val / 1024) + s) / 32 % 2 * 1024 + p.val; omega)
  have e1 := InputTiles.w1_tile m c ⟨32 * (2 * e.val + r.val / 1024) + s, ht⟩ e ⟨256 * s + j.val, hh⟩ k j
    (by show e.val = (32 * (2 * e.val + r.val / 1024) + s) / 64; omega)
    (by show 256 * s + j.val = 256 * ((32 * (2 * e.val + r.val / 1024) + s) % 32) + j.val; omega)
  exact congrArg₂ (· * ·) e0 e1

/-- An output entry's place in its tile: row `r % 1024`, the same column. -/
theorem place_eq (e : Fin 8) (r q : Fin 2048) :
    Value.loc3Of (ix3 e r q) = ix3 (0 : Fin 1) (⟨r.val % 1024, Nat.mod_lt _ (by decide)⟩ : Fin 1024) q :=
  funext fun a => Fin.ext (by
    match a with
    | ⟨0, _⟩ => show e.val % 1 = 0; omega
    | ⟨1, _⟩ => rfl
    | ⟨2, _⟩ => show q.val % 2048 = q.val; have := q.isLt; omega)

/-- The run that writes output entry (e, r, q) back is number `2 · e + r / 1024`. -/
theorem run_eq (e : Fin 8) (r q : Fin 2048) : Value.run3Of (ix3 e r q) = 2 * e.val + r.val / 1024 := by
  show 2 * (e.val / 1 - 0) + 1 * (r.val / 1024 - 0) + 1 * (q.val / 2048 - 0) = _
  have := q.isLt
  omega

/-- The kernel's array at entry (e, r, q): the 32 addends of that entry's run, at its place in the tile. -/
theorem result_fold (c : Dev nD) (e : Fin 8) (r q : Fin 2048) (hlt : 32 * Value.run3Of (ix3 e r q) + 31 < cfg0.N) :
    (Value.G3 m c (ix3 e r q) : EReal)
      = ∑ s ∈ Finset.range 32, addend m c (32 * Value.run3Of (ix3 e r q) + s) (⟨r.val % 1024, Nat.mod_lt _ (by decide)⟩ : Fin 1024) q := by
  have hG : Value.G3 m c (ix3 e r q)
      = Pipeline.accAt (Value.reset3 m c) (Value.step3 m c) (32 * Value.run3Of (ix3 e r q)) 31 hlt (Value.loc3Of (ix3 e r q)) := by
    unfold Value.G3
    exact dif_pos hlt
  rw [hG, place_eq]
  exact (fold_apply m c _ hlt _).trans (zero_add _)

/-- The array the kernel leaves is the feed-forward block of its three arguments. -/
theorem result_eq (c : Dev nD) :
    Value.G3 m c = ffn (m ((c : Thread nD τ).loc main_arg0)) (m ((c : Thread nD τ).loc main_arg1))
      (m ((c : Thread nD τ).loc main_arg2)) := by
  funext i
  obtain ⟨e, r, q, rfl⟩ : ∃ (e : Fin 8) (r : Fin 2048) (q : Fin 2048), i = ix3 e r q := ⟨i 0, i 1, i 2, eq_ix3 i⟩
  have hN : cfg0.N = 512 := N_0
  have he := e.isLt
  have hr := r.isLt
  have hlt : 32 * Value.run3Of (ix3 e r q) + 31 < cfg0.N := by rw [run_eq, hN]; omega
  have h1 : (Value.G3 m c (ix3 e r q) : EReal)
      = ∑ s ∈ Finset.range 32, addend m c (32 * (2 * e.val + r.val / 1024) + s) (⟨r.val % 1024, Nat.mod_lt _ (by decide)⟩ : Fin 1024) q := by
    rw [← run_eq e r q]
    exact result_fold m c e r q hlt
  have h2 : ∑ s ∈ Finset.range 32, addend m c (32 * (2 * e.val + r.val / 1024) + s) (⟨r.val % 1024, Nat.mod_lt _ (by decide)⟩ : Fin 1024) q
      = ∑ s ∈ Finset.range 32, ∑ j : Fin 256, termAt (m ((c : Thread nD τ).loc main_arg0)) (m ((c : Thread nD τ).loc main_arg1))
          (m ((c : Thread nD τ).loc main_arg2)) e r q (256 * s + j.val) :=
    Finset.sum_congr rfl fun s hs =>
      addend_eq m c e r q ⟨r.val % 1024, Nat.mod_lt _ (by decide)⟩ rfl s (Finset.mem_range.mp hs)
  exact h1.trans (h2.trans (ffn_tiles _ _ _ e r q).symm)

end Cert.KernelIdeal.Accumulated

end
-- ==== Proof.lean ====
/-
  The kernel and its reference compute the same per-expert feed-forward block on the extended reals:

      out (e, r, q) = ∑ h < 8192, max (∑ k < 2048, x (e, r, k) · w1 (e, k, h)) 0 · w2 (e, h, q)

  (`ExpertFfn.ffn`). The reference contracts the whole hidden axis at once (`RefValue.result_eq`). The kernel keeps
  a [1024, 2048] output tile resident over the 32 hidden tiles of 256 units, starting from zero and adding each tile's
  contributions, so its array holds the same sum taken tile by tile (`Accumulated.result_eq`). The two arrangements
  of the sum agree by associativity and commutativity of the addition alone, so the inputs' finiteness is never
  used; the changes of float format on the way into the products are the identity on the extended reals, and the
  idealization rewrote nothing, so there is nothing to preserve beyond that.
-/
import proofs.«151476_j80882824118673_2_alg».proof.Defs
import proofs.«151476_j80882824118673_2_alg».proof.Proof.Gen.Kernel.Frame
import proofs.«151476_j80882824118673_2_alg».proof.Proof.Gen.KernelIdeal.Value
import proofs.«151476_j80882824118673_2_alg».proof.Proof.Gen.Pre_finite_inputs
import proofs.«151476_j80882824118673_2_alg».proof.Proof.Gen.ReferenceIdeal.Run
import proofs.«151476_j80882824118673_2_alg».proof.Proof.RefRead
import proofs.«151476_j80882824118673_2_alg».proof.Proof.Accumulated
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The same for the idealized reference, from its run. -/
theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the three arguments, both programs end with the feed-forward block of those
    arguments in their result arrays: the reference's composed term is `ffn`, and so is the kernel's accumulated array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v2_eq _ _ _).trans
    ((Cert.ReferenceIdeal.RefValue.result_eq _ _ _).trans (Cert.KernelIdeal.Accumulated.result_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
